-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x10 .f32) (main_arg5 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3200000x16 : Shape := ⟨2, ![3200000, 16]⟩
abbrev S1x16 : Shape := ⟨2, ![1, 16]⟩
abbrev S100000x10 : Shape := ⟨2, ![100000, 10]⟩
abbrev S5000x10 : Shape := ⟨2, ![5000, 10]⟩
abbrev S3200000x10 : Shape := ⟨2, ![3200000, 10]⟩
abbrev S1x10 : Shape := ⟨2, ![1, 10]⟩

abbrev nBuf : Space → Nat
  | .hbm => 63
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x1, .f32⟩
  | .hbm, ⟨32, _⟩ => ⟨S100000x16, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x16, .f32⟩
  | .hbm, ⟨42, _⟩ => ⟨S_, .f32⟩
  | .hbm, ⟨43, _⟩ => ⟨S100000x16, .f32⟩
  | .hbm, ⟨44, _⟩ => ⟨S3200000x1, .i32⟩
  | .hbm, ⟨45, _⟩ => ⟨S100000x16, .f32⟩
  | .hbm, ⟨46, _⟩ => ⟨S1x16, .f32⟩
  | .hbm, ⟨47, _⟩ => ⟨S100000x10, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x10, .f32⟩
  | .hbm, ⟨57, _⟩ => ⟨S_, .f32⟩
  | .hbm, ⟨58, _⟩ => ⟨S100000x10, .f32⟩
  | .hbm, ⟨59, _⟩ => ⟨S3200000x1, .i32⟩
  | .hbm, ⟨60, _⟩ => ⟨S100000x10, .f32⟩
  | .hbm, ⟨61, _⟩ => ⟨S1x10, .f32⟩
  | .hbm, ⟨62, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x1, .f32⟩
  | .local _ .vmem, ⟨13, _⟩ => ⟨S5000x1, .f32⟩
  | .local _ .vmem, ⟨14, _⟩ => ⟨S16x10, .f32⟩
  | .local _ .vmem, ⟨15, _⟩ => ⟨S5000x10, .f32⟩
  | .local _ .vmem, ⟨16, _⟩ => ⟨S5000x10, .f32⟩
  | .local _ .vmem, ⟨17, _⟩ => ⟨S5000x10, .f32⟩
  | .local _ .vmem, ⟨18, _⟩ => ⟨S5000x10, .f32⟩
  | .local _ .vmem, ⟨19, _⟩ => ⟨S5000x1, .f32⟩
  | .local _ .vmem, ⟨20, _⟩ => ⟨S5000x1, .f32⟩
  | .local _ .vmem, ⟨21, _⟩ => ⟨S1x10, .f32⟩
  | .local _ .vmem, ⟨22, _⟩ => ⟨S5000x10, .f32⟩
  | .local _ .vmem, ⟨23, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x10_S16x10_0_0 : ∀ a, (![0, 0] : Fin 2 → Nat) a + S16x10.size a ≤ S16x10.size a
  h_S16x10 : 0 < S16x10.numel
  inb_S5000x10_S5000x10_0_0 : ∀ a, (![0, 0] : Fin 2 → Nat) a + S5000x10.size a ≤ S5000x10.size a
  h_S5000x10 : 0 < S5000x10.numel
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  broadcasts_S5000x1_S5000x10 : S5000x1.Broadcasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  scatter_S100000_S3200000x1_S3200000_n_0_0_1_wf : ScatterDims.WF S100000 S3200000x1 S3200000 [] [0] [0] 1
  dot_S5000x128_S128x16_S5000x16_1_0_0_1_n_n_wf : DotDims.WF S5000x128 S128x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x10_S5000x10_1_0_0_1_n_n_wf : DotDims.WF S5000x16 S16x10 S5000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x10.size a ≤ S16x10.size a
  hwx1_4 : ∀ i : grid1.Coords, EltTy.bits .f32 = 32 ∨ (Rect.block (s := S16x10) S16x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x10.size a ≤ S100000x10.size a
  hwx1_5 : ∀ i : grid1.Coords, EltTy.bits .f32 = 32 ∨ (Rect.block (s := S100000x10) S5000x10.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S100000x10.size a
  hwx2_0 : ∀ i : grid2.Coords, EltTy.bits .f32 = 32 ∨ (Rect.block (s := S100000x10) S5000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S100000x10.size a
  hwx2_3 : ∀ i : grid2.Coords, EltTy.bits .f32 = 32 ∨ (Rect.block (s := S100000x10) S5000x10.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S3200000x16 : Shape := ⟨2, ![3200000, 16]⟩
abbrev S1x16 : Shape := ⟨2, ![1, 16]⟩
abbrev S100000x10 : Shape := ⟨2, ![100000, 10]⟩
abbrev S3200000x10 : Shape := ⟨2, ![3200000, 10]⟩
abbrev S1x10 : Shape := ⟨2, ![1, 10]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S_, .f32⟩
  | .hbm, ⟨44, _⟩ => ⟨S100000x16, .f32⟩
  | .hbm, ⟨45, _⟩ => ⟨S3200000x1, .i32⟩
  | .hbm, ⟨46, _⟩ => ⟨S100000x16, .f32⟩
  | .hbm, ⟨47, _⟩ => ⟨S100000x1, .f32⟩
  | .hbm, ⟨48, _⟩ => ⟨S100000x16, .f32⟩
  | .hbm, ⟨49, _⟩ => ⟨S100000x16, .f32⟩
  | .hbm, ⟨50, _⟩ => ⟨S1x16, .f32⟩
  | .hbm, ⟨51, _⟩ => ⟨S100000x16, .f32⟩
  | .hbm, ⟨52, _⟩ => ⟨S100000x16, .f32⟩
  | .hbm, ⟨53, _⟩ => ⟨S_, .f32⟩
  | .hbm, ⟨54, _⟩ => ⟨S100000x16, .f32⟩
  | .hbm, ⟨55, _⟩ => ⟨S100000x16, .f32⟩
  | .hbm, ⟨56, _⟩ => ⟨S100000x1, .f32⟩
  | .hbm, ⟨57, _⟩ => ⟨S100000x16, .f32⟩
  | .hbm, ⟨58, _⟩ => ⟨S100000x16, .f32⟩
  | .hbm, ⟨59, _⟩ => ⟨S100000x10, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x10, .f32⟩
  | .hbm, ⟨69, _⟩ => ⟨S_, .f32⟩
  | .hbm, ⟨70, _⟩ => ⟨S100000x10, .f32⟩
  | .hbm, ⟨71, _⟩ => ⟨S3200000x1, .i32⟩
  | .hbm, ⟨72, _⟩ => ⟨S100000x10, .f32⟩
  | .hbm, ⟨73, _⟩ => ⟨S100000x1, .f32⟩
  | .hbm, ⟨74, _⟩ => ⟨S100000x10, .f32⟩
  | .hbm, ⟨75, _⟩ => ⟨S100000x10, .f32⟩
  | .hbm, ⟨76, _⟩ => ⟨S1x10, .f32⟩
  | .hbm, ⟨77, _⟩ => ⟨S100000x10, .f32⟩
  | .hbm, ⟨78, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_cst : Ref sig .tc := ⟨.hbm, 53, rfl⟩
abbrev main_call2_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3200000x1_S3200000_n_0_0_1_wf : ScatterDims.WF S100000 S3200000x1 S3200000 [] [0] [0] 1
  dot_S100000x128_S128x16_S100000x16_1_0_0_1_n_n_wf : DotDims.WF S100000x128 S128x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x10_S100000x10_1_0_0_1_n_n_wf : DotDims.WF S100000x16 S16x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.KRun.lean ====
/-
  The kernel program's run with its result named.

  The program is ten segments: five stretches of host operations, the first projection kernel, a stretch (the
  first aggregation), the second kernel, a stretch (the second aggregation) and the last kernel. Every weakly
  fair execution ends with every unscoped buffer at the last boundary's contents; read at the result buffer this
  names the result, and read at the six arguments it says they are as launched.
-/
import proofs.«164237_j20950850470456_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at
    the last boundary's contents and the argument arrays as launched. -/
theorem run_out : θ_run defs (onTc (τ := τ) (main (F := F))) ⟨m, fun _ => 0, ρ⟩ (fun r => ∀ c : Dev nD,
      r.2.mem ((c.tc : Thread nD τ).loc main_v41) = W10 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v41 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.KV

end
-- ==== Proof.Spec.lean ====
/-
  A two-layer graph convolution, the three dense pieces between its two neighbour aggregations, as functions
  of whole arrays over the extended reals.

  With a per-node column s (the inverse square root of the out-degree), a per-node column d (of the in-degree),
  a bias row b and weights W:

  * `proj X s W`  — every row of X scaled by its node's s, then multiplied by W:
        (r, j) ↦ ∑ c, (X(r, c) · s(r)) · W(c, j);
  * `act A d b s W` — an aggregated array A scaled by d, the bias added, clamped at zero, scaled by s, then
    multiplied by W:  (r, j) ↦ ∑ c, (max(A(r, c) · d(r) + b(c), 0) · s(r)) · W(c, j);
  * `fin A d b`   — the last aggregated array scaled by d with the bias added:  (r, j) ↦ A(r, j) · d(r) + b(j).

  The zero of the clamp is kept as the float word it is printed with: both programs spell it with the same word,
  so it is never evaluated.
-/
import Idealize.ShloMosaic.PureOps.Ideal
import Idealize.ShloMosaic.Lib.ValueIdx

noncomputable section

open scoped BigOperators

namespace Cert.Gcn

open Idealize.ShloMosaic Idealize.ShloMosaic.ValueIdx

variable {n k w : Nat}

/-- Rows scaled per node, then the weight applied. -/
def proj (X : (⟨2, ![n, k]⟩ : Shape).Idx → EReal) (s : (⟨2, ![n, 1]⟩ : Shape).Idx → EReal)
    (W : (⟨2, ![k, w]⟩ : Shape).Idx → EReal) : (⟨2, ![n, w]⟩ : Shape).Idx → EReal :=
  fun i => ∑ c : Fin k, (X (ix2 (i 0) c) * s (ix2 (i 0) (0 : Fin 1))) * W (ix2 c (i 1))

theorem proj_apply (X : (⟨2, ![n, k]⟩ : Shape).Idx → EReal) (s : (⟨2, ![n, 1]⟩ : Shape).Idx → EReal)
    (W : (⟨2, ![k, w]⟩ : Shape).Idx → EReal) (p : Fin n) (q : Fin w) :
    proj X s W (ix2 p q) = ∑ c : Fin k, (X (ix2 p c) * s (ix2 p (0 : Fin 1))) * W (ix2 c q) := rfl

/-- An aggregated array finished (scaled, biased, clamped at zero), scaled per node, then the weight applied. -/
def act (A : (⟨2, ![n, k]⟩ : Shape).Idx → EReal) (d : (⟨2, ![n, 1]⟩ : Shape).Idx → EReal)
    (b : (⟨2, ![1, k]⟩ : Shape).Idx → EReal) (s : (⟨2, ![n, 1]⟩ : Shape).Idx → EReal)
    (W : (⟨2, ![k, w]⟩ : Shape).Idx → EReal) : (⟨2, ![n, w]⟩ : Shape).Idx → EReal :=
  fun i => ∑ c : Fin k,
    (max (A (ix2 (i 0) c) * d (ix2 (i 0) (0 : Fin 1)) + b (ix2 (0 : Fin 1) c)) (Ideal.ofBits .f32 0x00000000#32)
      * s (ix2 (i 0) (0 : Fin 1))) * W (ix2 c (i 1))

theorem act_apply (A : (⟨2, ![n, k]⟩ : Shape).Idx → EReal) (d : (⟨2, ![n, 1]⟩ : Shape).Idx → EReal)
    (b : (⟨2, ![1, k]⟩ : Shape).Idx → EReal) (s : (⟨2, ![n, 1]⟩ : Shape).Idx → EReal)
    (W : (⟨2, ![k, w]⟩ : Shape).Idx → EReal) (p : Fin n) (q : Fin w) :
    act A d b s W (ix2 p q) = ∑ c : Fin k,
      (max (A (ix2 p c) * d (ix2 p (0 : Fin 1)) + b (ix2 (0 : Fin 1) c)) (Ideal.ofBits .f32 0x00000000#32)
        * s (ix2 p (0 : Fin 1))) * W (ix2 c q) := rfl

/-- The last aggregated array scaled per node, the bias added. -/
def fin (A : (⟨2, ![n, w]⟩ : Shape).Idx → EReal) (d : (⟨2, ![n, 1]⟩ : Shape).Idx → EReal)
    (b : (⟨2, ![1, w]⟩ : Shape).Idx → EReal) : (⟨2, ![n, w]⟩ : Shape).Idx → EReal :=
  fun i => A (ix2 (i 0) (i 1)) * d (ix2 (i 0) (0 : Fin 1)) + b (ix2 (0 : Fin 1) (i 1))

theorem fin_apply (A : (⟨2, ![n, w]⟩ : Shape).Idx → EReal) (d : (⟨2, ![n, 1]⟩ : Shape).Idx → EReal)
    (b : (⟨2, ![1, w]⟩ : Shape).Idx → EReal) (p : Fin n) (q : Fin w) :
    fin A d b (ix2 p q) = A (ix2 p q) * d (ix2 p (0 : Fin 1)) + b (ix2 (0 : Fin 1) q) := rfl

end Cert.Gcn

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibProduct.lean ====
/-
  The plain matrix product as one array, and its two spellings.

  For an R×K matrix X and a K×N matrix W the product is the array

      prod X W (i, j) = ∑ c, X(i, c) · W(c, j)

  in the extended reals. A host's general dot product with the plain dimension numbers IS this array, and a
  product on the matrix unit into the zero accumulator holds the same sum at every entry — with no finiteness
  asked, since each is that sum by definition once the contraction index is renamed by its one coordinate.
  The dimension record may be any record equal to the plain one (for a record written out with those lists the
  equality is `rfl`).
-/
import Idealize.ShloMosaic.PureOps.Ideal.Laws
import Idealize.ShloMosaic.Lib.ValueIdx
import proofs.«164237_j20950850470456_1_alg».proof.Proof.LibPlainDot

noncomputable section

open scoped BigOperators

namespace Cert.Product

open Idealize.ShloMosaic Idealize.ShloMosaic.ValueIdx

variable {R K N : Nat}

/-- The product X · W as one array, entry by entry. -/
def prod (X : (⟨2, ![R, K]⟩ : Shape).Idx → EReal) (W : (⟨2, ![K, N]⟩ : Shape).Idx → EReal) :
    (⟨2, ![R, N]⟩ : Shape).Idx → EReal :=
  fun i => ∑ c : Fin K, X (ix2 (i 0) c) * W (ix2 c (i 1))

/-- The product at entry (p, q). -/
theorem prod_apply (X : (⟨2, ![R, K]⟩ : Shape).Idx → EReal) (W : (⟨2, ![K, N]⟩ : Shape).Idx → EReal)
    (p : Fin R) (q : Fin N) : prod X W (ix2 p q) = ∑ c : Fin K, X (ix2 p c) * W (ix2 c q) := rfl

/-- The host's general dot product with the plain dimension numbers is the product. -/
theorem dotGeneral_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32) :
    Host.dotGeneral D prec X W = prod X W := by
  funext j
  obtain ⟨p, q, rfl⟩ : ∃ (p : Fin R) (q : Fin N), j = ix2 p q := ⟨j 0, j 1, eq_ix2 j⟩
  exact PlainDot.dotGeneral_apply D hD prec .single X W p q

/-- A product on the matrix unit into the zero accumulator, after a change of float format of both operands,
    at entry (p, q): the product's entry. -/
theorem matmul_truncf_apply (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hlt : FTy.bf16.bits < FTy.f32.bits) (p : Fin R) (q : Fin N) :
    matmul D prec (truncf .bf16 X hlt) (truncf .bf16 W hlt) (constant (F := Ideal) ⟨2, ![R, N]⟩ .f32 0x00000000#32) (ix2 p q)
      = prod X W (ix2 p q) :=
  PlainDot.matmul_zero_apply D hD prec (truncf .bf16 X hlt) (truncf .bf16 W hlt) p q

end Cert.Product

end
-- ==== Proof.LibMatrixReads.lean ====
/-
  Three reads of a matrix at one entry that a row-tiled or column-tiled kernel body meets:

  * an a×1 column spread over b lanes (`vector.broadcast` of a keepdims column) reads the column's entry;
  * row k of a matrix loaded as a 1×n row (a `vector.load` through the unit-stride rectangle at offset (k, 0) of
    sizes (1, n)) reads the matrix at (k, j);
  * column k of a matrix cut out as an a×1 column (`vector.extract_strided_slice` at offset (0, k)) and spread over
    b lanes reads the matrix at (p, k).
-/
import Idealize.ShloMosaic.Lib.Pipeline.Value
import Idealize.ShloMosaic.Lib.Pipeline.FrameBody
import Idealize.ShloMosaic.Lib.ValueLayout
import Idealize.ShloMosaic.Lib.ValueIdx

noncomputable section

namespace Cert.MatrixReads

open Idealize.ShloMosaic Idealize.ShloMosaic.ValueIdx

variable {α : Type}

/-- An a×1 column spread over b lanes reads, at (p, c), the column's entry p. -/
theorem column_spread_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row k of an n0×n1 matrix loaded as a 1×n1 row reads, at (0, j), the matrix at (k, j). -/
theorem row_load_apply {Val : EltTy → Type} {e : EltTy} {n0 n1 : ℕ} (X : (⟨2, ![n0, n1]⟩ : Shape).Idx → Val e) (k : Fin n0)
    (inb : ∀ a, (![k.val, 0] : Fin 2 → Nat) a + (![1, n1] : Fin 2 → Nat) a ≤ (⟨2, ![n0, n1]⟩ : Shape).size a)
    (j : Fin n1) :
    View.ld (Val := Val) X (Rect.unit (s := ⟨2, ![n0, n1]⟩) ![k.val, 0] ![1, n1] inb) (ix2 (0 : Fin 1) j) = X (ix2 k j) := by
  show X _ = X _
  refine congrArg X (funext fun ax => Fin.ext ?_)
  match ax with
  | ⟨0, _⟩ => show k.val + 1 * 0 = k.val; omega
  | ⟨1, _⟩ => show 0 + 1 * j.val = j.val; omega

/-- Column k of an a×n matrix cut out as an a×1 column and spread over b lanes reads, at (p, c), the matrix at (p, k). -/
theorem column_cut_spread_apply {a n b : ℕ} (X : (⟨2, ![a, n]⟩ : Shape).Idx → α) (o : ℕ) (k : Fin n) (hk : k.val = o)
    (hs : (⟨2, ![a, n]⟩ : Shape).Slices ![0, o] ⟨2, ![a, 1]⟩)
    (hb : (⟨2, ![a, 1]⟩ : Shape).Broadcasts ⟨2, ![a, b]⟩) (p : Fin a) (c : Fin b) :
    broadcastTo ⟨2, ![a, b]⟩ (extractStridedSlice ⟨2, ![a, 1]⟩ ![0, o] X hs) hb (ix2 p c) = X (ix2 p k) :=
  (column_spread_apply _ hb p c).trans (slice2_axis1_apply o X hs p (0 : Fin 1) k hk)

end Cert.MatrixReads

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KBody.lean ====
/-
  What each of the three kernel bodies stores, read at one entry over the extended reals.

  The first body multiplies a block of 5000 rows, each scaled by its node's factor, into the 128×16 weight; the
  second finishes a block of the first aggregation (scale, bias, clamp at zero), scales it and multiplies it into
  the 16×10 weight; the third scales a block of the second aggregation and adds the bias. A change of float
  format is the identity, and a product on the matrix unit into the zero accumulator is the plain sum of
  products, so each stored entry is the matching entry of `Gcn.proj`, `Gcn.act`, `Gcn.fin` of any whole arrays
  that agree with the blocks on the entries the sum reads.
-/
import proofs.«164237_j20950850470456_1_alg».proof.Proof.Gen.KernelIdeal.Skeleton
import proofs.«164237_j20950850470456_1_alg».proof.Proof.Spec
import proofs.«164237_j20950850470456_1_alg».proof.Proof.LibProduct
import proofs.«164237_j20950850470456_1_alg».proof.Proof.LibMatrixReads
import proofs.«164237_j20950850470456_1_alg».proof.Proof.LibRowVector
import Idealize.ShloMosaic.Lib.ValueIdx
import Idealize.ShloMosaic.Lib.Pipeline.Value

noncomputable section

open scoped BigOperators

namespace Cert.KernelIdeal.KV

open Cert.KernelIdeal Cert.KernelIdeal.Gen
open Idealize.ShloMosaic Idealize.ShloMosaic.ValueIdx

/-- The first body's stored entry (p, q): the sum over the 128 features of the scaled row times the weight. -/
theorem pay0_apply (x0 : FVec Ideal S5000x128 .f32) (x1 : FVec Ideal S5000x1 .f32) (x2 : FVec Ideal S128x16 .f32)
    (p : Fin 5000) (q : Fin 16) :
    k0_pay1 x0 x1 x2 (ix2 p q) = ∑ c : Fin 128, (x0 (ix2 p c) * x1 (ix2 p (0 : Fin 1))) * x2 (ix2 c q) := by
  unfold k0_pay1
  refine (Cert.Product.matmul_truncf_apply dot_S5000x128_S128x16_S5000x16_1_0_0_1_n_n rfl none
    (mulf x0 (broadcastTo S5000x128 (shapeCast S5000x1 x1 shapeCasts_S5000x1_S5000x1) broadcasts_S5000x1_S5000x128))
    x2 bitsLt_bf16_f32 p q).trans ?_
  rw [Cert.Product.prod_apply]
  refine Finset.sum_congr rfl fun c _ => ?_
  refine congrArg (· * x2 (ix2 c q)) ?_
  rw [mulf_apply, Cert.MatrixReads.column_spread_apply, shapeCast_self]

/-- The second body's stored entry (p, q). -/
theorem pay1_apply (x0 : FVec Ideal S5000x16 .f32) (x1 : FVec Ideal S5000x1 .f32) (x2 : FVec Ideal S1x16 .f32)
    (x3 : FVec Ideal S5000x1 .f32) (x4 : FVec Ideal S16x10 .f32) (p : Fin 5000) (q : Fin 10) :
    k1_pay1 x0 x1 x2 x3 x4 (ix2 p q) = ∑ c : Fin 16,
      (max (x0 (ix2 p c) * x1 (ix2 p (0 : Fin 1)) + x2 (ix2 (0 : Fin 1) c)) (Ideal.ofBits .f32 0x00000000#32)
        * x3 (ix2 p (0 : Fin 1))) * x4 (ix2 c q) := by
  unfold k1_pay1
  refine (Cert.Product.matmul_truncf_apply dot_S5000x16_S16x10_S5000x10_1_0_0_1_n_n rfl none
    (mulf (maximumf (addf (mulf (shapeCast S5000x16 x0 shapeCasts_S5000x16_S5000x16)
        (broadcastTo S5000x16 (shapeCast S5000x1 x1 shapeCasts_S5000x1_S5000x1) broadcasts_S5000x1_S5000x16))
        (broadcastTo S5000x16 (shapeCast S1x16 x2 shapeCasts_S1x16_S1x16) broadcasts_S1x16_S5000x16))
        (broadcast S5000x16 (Scalar.ofBits (F := Ideal) .f32 0x00000000#32)))
      (broadcastTo S5000x16 (shapeCast S5000x1 x3 shapeCasts_S5000x1_S5000x1) broadcasts_S5000x1_S5000x16))
    x4 bitsLt_bf16_f32 p q).trans ?_
  rw [Cert.Product.prod_apply]
  refine Finset.sum_congr rfl fun c _ => ?_
  refine congrArg (· * x4 (ix2 c q)) ?_
  rw [mulf_apply, maximumf_apply, addf_apply, mulf_apply, Cert.MatrixReads.column_spread_apply,
    Cert.MatrixReads.column_spread_apply, Cert.RowVector.broadcastTo_row (by decide), shapeCast_self, shapeCast_self,
    shapeCast_self, shapeCast_self]
  rfl

/-- The third body's stored entry (p, q). -/
theorem pay2_apply (x0 : FVec Ideal S5000x10 .f32) (x1 : FVec Ideal S5000x1 .f32) (x2 : FVec Ideal S1x10 .f32)
    (p : Fin 5000) (q : Fin 10) :
    k2_pay1 x0 x1 x2 (ix2 p q) = x0 (ix2 p q) * x1 (ix2 p (0 : Fin 1)) + x2 (ix2 (0 : Fin 1) q) := by
  unfold k2_pay1
  show addf (mulf (shapeCast S5000x10 x0 shapeCasts_S5000x10_S5000x10)
      (broadcastTo S5000x10 (shapeCast S5000x1 x1 shapeCasts_S5000x1_S5000x1) broadcasts_S5000x1_S5000x10))
    (broadcastTo S5000x10 (shapeCast S1x10 x2 shapeCasts_S1x10_S1x10) broadcasts_S1x10_S5000x10) (ix2 p q) = _
  rw [addf_apply, mulf_apply, Cert.MatrixReads.column_spread_apply, Cert.RowVector.broadcastTo_row (by decide),
    shapeCast_self, shapeCast_self, shapeCast_self]

/-- The first body's stored entry is the projection's, for whole arrays that agree with the blocks where the
    sum reads them. -/
theorem body0_at (X0 : (⟨2, ![100000, 128]⟩ : Shape).Idx → EReal) (X1 : (⟨2, ![100000, 1]⟩ : Shape).Idx → EReal)
    (X2 : (⟨2, ![128, 16]⟩ : Shape).Idx → EReal)
    (x0 : FVec Ideal S5000x128 .f32) (x1 : FVec Ideal S5000x1 .f32) (x2 : FVec Ideal S128x16 .f32)
    (j : (⟨2, ![5000, 16]⟩ : Shape).Idx) (i : (⟨2, ![100000, 16]⟩ : Shape).Idx)
    (h0 : ∀ c : Fin 128, x0 (ix2 (j 0) c) = X0 (ix2 (i 0) c))
    (h1 : x1 (ix2 (j 0) (0 : Fin 1)) = X1 (ix2 (i 0) (0 : Fin 1)))
    (h2 : ∀ c : Fin 128, x2 (ix2 c (j 1)) = X2 (ix2 c (i 1))) :
    k0_pay1 (F := Ideal) x0 x1 x2 j = Cert.Gcn.proj X0 X1 X2 i := by
  obtain ⟨p, q, rfl⟩ : ∃ (p : Fin 5000) (q : Fin 16), j = ix2 p q := ⟨j 0, j 1, eq_ix2 j⟩
  refine (pay0_apply x0 x1 x2 p q).trans ?_
  show _ = ∑ c : Fin 128, (X0 (ix2 (i 0) c) * X1 (ix2 (i 0) (0 : Fin 1))) * X2 (ix2 c (i 1))
  refine Finset.sum_congr rfl fun c _ => ?_
  have e0 : x0 (ix2 p c) = X0 (ix2 (i 0) c) := h0 c
  have e1 : x1 (ix2 p (0 : Fin 1)) = X1 (ix2 (i 0) (0 : Fin 1)) := h1
  have e2 : x2 (ix2 c q) = X2 (ix2 c (i 1)) := h2 c
  rw [e0, e1, e2]

/-- The second body's stored entry is `Gcn.act`'s. -/
theorem body1_at (X0 : (⟨2, ![100000, 16]⟩ : Shape).Idx → EReal) (X1 : (⟨2, ![100000, 1]⟩ : Shape).Idx → EReal)
    (X2 : (⟨2, ![1, 16]⟩ : Shape).Idx → EReal) (X3 : (⟨2, ![100000, 1]⟩ : Shape).Idx → EReal)
    (X4 : (⟨2, ![16, 10]⟩ : Shape).Idx → EReal)
    (x0 : FVec Ideal S5000x16 .f32) (x1 : FVec Ideal S5000x1 .f32) (x2 : FVec Ideal S1x16 .f32)
    (x3 : FVec Ideal S5000x1 .f32) (x4 : FVec Ideal S16x10 .f32)
    (j : (⟨2, ![5000, 10]⟩ : Shape).Idx) (i : (⟨2, ![100000, 10]⟩ : Shape).Idx)
    (h0 : ∀ c : Fin 16, x0 (ix2 (j 0) c) = X0 (ix2 (i 0) c))
    (h1 : x1 (ix2 (j 0) (0 : Fin 1)) = X1 (ix2 (i 0) (0 : Fin 1)))
    (h2 : ∀ c : Fin 16, x2 (ix2 (0 : Fin 1) c) = X2 (ix2 (0 : Fin 1) c))
    (h3 : x3 (ix2 (j 0) (0 : Fin 1)) = X3 (ix2 (i 0) (0 : Fin 1)))
    (h4 : ∀ c : Fin 16, x4 (ix2 c (j 1)) = X4 (ix2 c (i 1))) :
    k1_pay1 (F := Ideal) x0 x1 x2 x3 x4 j = Cert.Gcn.act X0 X1 X2 X3 X4 i := by
  obtain ⟨p, q, rfl⟩ : ∃ (p : Fin 5000) (q : Fin 10), j = ix2 p q := ⟨j 0, j 1, eq_ix2 j⟩
  refine (pay1_apply x0 x1 x2 x3 x4 p q).trans ?_
  show _ = ∑ c : Fin 16, (max (X0 (ix2 (i 0) c) * X1 (ix2 (i 0) (0 : Fin 1)) + X2 (ix2 (0 : Fin 1) c))
      (Ideal.ofBits .f32 0x00000000#32) * X3 (ix2 (i 0) (0 : Fin 1))) * X4 (ix2 c (i 1))
  refine Finset.sum_congr rfl fun c _ => ?_
  have e0 : x0 (ix2 p c) = X0 (ix2 (i 0) c) := h0 c
  have e1 : x1 (ix2 p (0 : Fin 1)) = X1 (ix2 (i 0) (0 : Fin 1)) := h1
  have e3 : x3 (ix2 p (0 : Fin 1)) = X3 (ix2 (i 0) (0 : Fin 1)) := h3
  have e4 : x4 (ix2 c q) = X4 (ix2 c (i 1)) := h4 c
  rw [e0, e1, h2 c, e3, e4]

/-- The third body's stored entry is `Gcn.fin`'s. -/
theorem body2_at (X0 : (⟨2, ![100000, 10]⟩ : Shape).Idx → EReal) (X1 : (⟨2, ![100000, 1]⟩ : Shape).Idx → EReal)
    (X2 : (⟨2, ![1, 10]⟩ : Shape).Idx → EReal)
    (x0 : FVec Ideal S5000x10 .f32) (x1 : FVec Ideal S5000x1 .f32) (x2 : FVec Ideal S1x10 .f32)
    (j : (⟨2, ![5000, 10]⟩ : Shape).Idx) (i : (⟨2, ![100000, 10]⟩ : Shape).Idx)
    (h0 : x0 (ix2 (j 0) (j 1)) = X0 (ix2 (i 0) (i 1)))
    (h1 : x1 (ix2 (j 0) (0 : Fin 1)) = X1 (ix2 (i 0) (0 : Fin 1)))
    (h2 : x2 (ix2 (0 : Fin 1) (j 1)) = X2 (ix2 (0 : Fin 1) (i 1))) :
    k2_pay1 (F := Ideal) x0 x1 x2 j = Cert.Gcn.fin X0 X1 X2 i := by
  obtain ⟨p, q, rfl⟩ : ∃ (p : Fin 5000) (q : Fin 10), j = ix2 p q := ⟨j 0, j 1, eq_ix2 j⟩
  refine (pay2_apply x0 x1 x2 p q).trans ?_
  show _ = X0 (ix2 (i 0) (i 1)) * X1 (ix2 (i 0) (0 : Fin 1)) + X2 (ix2 (0 : Fin 1) (i 1))
  have e0 : x0 (ix2 p q) = X0 (ix2 (i 0) (i 1)) := h0
  have e1 : x1 (ix2 p (0 : Fin 1)) = X1 (ix2 (i 0) (0 : Fin 1)) := h1
  have e2 : x2 (ix2 (0 : Fin 1) q) = X2 (ix2 (0 : Fin 1) (i 1)) := h2
  rw [e0, e1, e2]

end Cert.KernelIdeal.KV

end
-- ==== Proof.KBlocks.lean ====
/-
  Each kernel's output array after its launch, as one function of the arrays the launch finds.

  Every launch walks 20 grid points; point t stages rows 5000·t … 5000·t + 4999 of each per-node array (and the
  whole of each weight or bias row), runs the body and writes the 5000 result rows back. The body's stored entry
  depends only on the same row of the staged arrays, so what point t writes back is block t of the whole-array
  function (`Gcn.proj`, `Gcn.act`, `Gcn.fin`) of the arrays at entry; the 20 blocks tile the output array,
  so the array ends holding that function. All of it for ANY contents `V` at the launch's entry.
-/
import proofs.«164237_j20950850470456_1_alg».proof.Proof.Gen.KernelIdeal.Frame
import proofs.«164237_j20950850470456_1_alg».proof.Proof.KBody
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first launch: the projection by the 128×16 weight -/

/-- The printed index maps over the 20 points: row-blocked windows sit at block (t, 0), whole windows at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t writes back block t of the projection of the arrays at entry. -/
theorem flushed0_eq (c : Dev nD) (t : Fin cfg0.N) :
    (dat0 V c).flushed 3 t = ((cfg0.win 3).blk t).view.read (Elt Ideal)
      (Cert.Gcn.proj (V c main_arg0) (V c main_v15) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x16) hz]
  obtain ⟨e00, e01, e10, e11, e20, e21, e30, e31⟩ := idx0 t
  funext j
  show k0_pay1 (iblk0 V c 0 t) (iblk0 V c 1 t) (iblk0 V c 2 t) j
    = Cert.Gcn.proj (V c main_arg0) (V c main_v15) (V c main_arg2) (((cfg0.win 3).blk t).view.emb j)
  refine body0_at (V c main_arg0) (V c main_v15) (V c main_arg2) (iblk0 V c 0 t) (iblk0 V c 1 t) (iblk0 V c 2 t)
    j (((cfg0.win 3).blk t).view.emb j) (fun cc => ?_) ?_ (fun cc => ?_)
  · show V c main_arg0 (((cfg0.win 0).blk t).view.emb (ix2 (j 0) cc))
      = V c main_arg0 (ix2 ((((cfg0.win 3).blk t).view.emb j) 0) cc)
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      rw [e00, e30]
    | ⟨1, _⟩ =>
      show win0_0.index t (1 : Fin 2) * 128 + 1 * cc.val = cc.val
      rw [e01]; omega
  · show V c main_v15 (((cfg0.win 1).blk t).view.emb (ix2 (j 0) (0 : Fin 1)))
      = V c main_v15 (ix2 ((((cfg0.win 3).blk t).view.emb j) 0) (0 : Fin 1))
    refine congrArg (V c main_v15) (funext fun a => Fin.ext ?_)
    match a with
    | ⟨0, _⟩ =>
      show win0_1.index t (0 : Fin 2) * 5000 + 1 * (j 0).val = win0_3.index t (0 : Fin 2) * 5000 + 1 * (j 0).val
      rw [e10, e30]
    | ⟨1, _⟩ =>
      show win0_1.index t (1 : Fin 2) * 1 + 1 * 0 = 0
      rw [e11]
  · show V c main_arg2 (((cfg0.win 2).blk t).view.emb (ix2 cc (j 1)))
      = V c main_arg2 (ix2 cc ((((cfg0.win 3).blk t).view.emb j) 1))
    refine congrArg (V c main_arg2) (funext fun a => Fin.ext ?_)
    match a with
    | ⟨0, _⟩ =>
      show win0_2.index t (0 : Fin 2) * 128 + 1 * cc.val = cc.val
      rw [e20]; omega
    | ⟨1, _⟩ =>
      show win0_2.index t (1 : Fin 2) * 16 + 1 * (j 1).val = win0_3.index t (1 : Fin 2) * 16 + 1 * (j 1).val
      rw [e21, e31]

/-- An index of the output array is in point t's block iff each coordinate is in the block's range. -/
theorem mem_blk0 (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v17).slice (win0_3.rect t)).set ↔ _
  rw [View.set_slice_whole, Rect.mem_set_unit]
  exact Iff.rfl

/-- Row r lies in the block of point r / 5000. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hlt : (i 0).val / 5000 < cfg0.N := by rw [show cfg0.N = 20 from N_0]; omega
  refine ⟨⟨(i 0).val / 5000, hlt⟩, flush0_3 _, ?_⟩
  rw [mem_blk0]
  obtain ⟨-, -, -, -, -, -, e30, e31⟩ := idx0 ⟨(i 0).val / 5000, hlt⟩
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 16 ≤ (i 1).val
      ∧ (i 1).val < win0_3.index ⟨(i 0).val / 5000, hlt⟩ (1 : Fin 2) * 16 + 16
    rw [e31]; omega

/-- After the first launch its output array is the projection of the arrays at entry. -/
theorem final0 (c : Dev nD) :
    (dat0 V c).arrAt 3 cfg0.N = Cert.Gcn.proj (V c main_arg0) (V c main_v15) (V c main_arg2) :=
  (dat0 V c).arrAt_eq_of_cover 3 _ (fun t _ => flushed0_eq V c t) cover0

/-! ## The second launch: the first layer finished, then the projection by the 16×10 weight -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed1_eq (c : Dev nD) (t : Fin cfg1.N) :
    (dat1 V c).flushed 5 t = ((cfg1.win 5).blk t).view.read (Elt Ideal)
      (Cert.Gcn.act (V c main_v27) (V c main_v16) (V c main_v28) (V c main_v15) (V c main_arg4)) := by
  show (cfg1.win 5).cut (grid1.coords t) ((dat1 V c).after 5 t) = _
  rw [after1_5]
  unfold out1_5
  rw [View.canon_unit_zero hz]
  simp only [View.ld_unit_zero (S := S5000x16) hz, View.ld_unit_zero (S := S5000x1) hz, View.ld_unit_zero (S := S1x16) hz,
    View.ld_unit_zero (S := S16x10) hz]
  obtain ⟨e00, e01, e10, e11, e20, e21, e30, e31, e40, e41, e50, e51⟩ := idx1 t
  funext j
  show k1_pay1 (iblk1 V c 0 t) (iblk1 V c 1 t) (iblk1 V c 2 t) (iblk1 V c 3 t) (iblk1 V c 4 t) j
    = Cert.Gcn.act (V c main_v27) (V c main_v16) (V c main_v28) (V c main_v15) (V c main_arg4)
        (((cfg1.win 5).blk t).view.emb j)
  refine body1_at (V c main_v27) (V c main_v16) (V c main_v28) (V c main_v15) (V c main_arg4)
    (iblk1 V c 0 t) (iblk1 V c 1 t) (iblk1 V c 2 t) (iblk1 V c 3 t) (iblk1 V c 4 t)
    j (((cfg1.win 5).blk t).view.emb j) (fun cc => ?_) ?_ (fun cc => ?_) ?_ (fun cc => ?_)
  · show V c main_v27 (((cfg1.win 0).blk t).view.emb (ix2 (j 0) cc))
      = V c main_v27 (ix2 ((((cfg1.win 5).blk t).view.emb j) 0) cc)
    refine congrArg (V c main_v27) (funext fun a => Fin.ext ?_)
    match a with
    | ⟨0, _⟩ =>
      show win1_0.index t (0 : Fin 2) * 5000 + 1 * (j 0).val = win1_5.index t (0 : Fin 2) * 5000 + 1 * (j 0).val
      rw [e00, e50]
    | ⟨1, _⟩ =>
      show win1_0.index t (1 : Fin 2) * 16 + 1 * cc.val = cc.val
      rw [e01]; omega
  · show V c main_v16 (((cfg1.win 1).blk t).view.emb (ix2 (j 0) (0 : Fin 1)))
      = V c main_v16 (ix2 ((((cfg1.win 5).blk t).view.emb j) 0) (0 : Fin 1))
    refine congrArg (V c main_v16) (funext fun a => Fin.ext ?_)
    match a with
    | ⟨0, _⟩ =>
      show win1_1.index t (0 : Fin 2) * 5000 + 1 * (j 0).val = win1_5.index t (0 : Fin 2) * 5000 + 1 * (j 0).val
      rw [e10, e50]
    | ⟨1, _⟩ =>
      show win1_1.index t (1 : Fin 2) * 1 + 1 * 0 = 0
      rw [e11]
  · show V c main_v28 (((cfg1.win 2).blk t).view.emb (ix2 (0 : Fin 1) cc)) = V c main_v28 (ix2 (0 : Fin 1) cc)
    refine congrArg (V c main_v28) (funext fun a => Fin.ext ?_)
    match a with
    | ⟨0, _⟩ =>
      show win1_2.index t (0 : Fin 2) * 1 + 1 * 0 = 0
      rw [e20]
    | ⟨1, _⟩ =>
      show win1_2.index t (1 : Fin 2) * 16 + 1 * cc.val = cc.val
      rw [e21]; omega
  · show V c main_v15 (((cfg1.win 3).blk t).view.emb (ix2 (j 0) (0 : Fin 1)))
      = V c main_v15 (ix2 ((((cfg1.win 5).blk t).view.emb j) 0) (0 : Fin 1))
    refine congrArg (V c main_v15) (funext fun a => Fin.ext ?_)
    match a with
    | ⟨0, _⟩ =>
      show win1_3.index t (0 : Fin 2) * 5000 + 1 * (j 0).val = win1_5.index t (0 : Fin 2) * 5000 + 1 * (j 0).val
      rw [e30, e50]
    | ⟨1, _⟩ =>
      show win1_3.index t (1 : Fin 2) * 1 + 1 * 0 = 0
      rw [e31]
  · show V c main_arg4 (((cfg1.win 4).blk t).view.emb (ix2 cc (j 1)))
      = V c main_arg4 (ix2 cc ((((cfg1.win 5).blk t).view.emb j) 1))
    refine congrArg (V c main_arg4) (funext fun a => Fin.ext ?_)
    match a with
    | ⟨0, _⟩ =>
      show win1_4.index t (0 : Fin 2) * 16 + 1 * cc.val = cc.val
      rw [e40]; omega
    | ⟨1, _⟩ =>
      show win1_4.index t (1 : Fin 2) * 10 + 1 * (j 1).val = win1_5.index t (1 : Fin 2) * 10 + 1 * (j 1).val
      rw [e41, e51]

theorem mem_blk1 (t : Fin cfg1.N) (i : S100000x10.Idx) :
    i ∈ ((cfg1.win 5).blk t).view.set ↔ ∀ a : Fin 2, win1_5.index t a * S5000x10.size a ≤ (i a).val
      ∧ (i a).val < win1_5.index t a * S5000x10.size a + S5000x10.size a := by
  show i ∈ ((View.whole main_v29).slice (win1_5.rect t)).set ↔ _
  rw [View.set_slice_whole, Rect.mem_set_unit]
  exact Iff.rfl

theorem cover1 (i : S100000x10.Idx) :
    ∃ t : Fin cfg1.N, (cfg1.win 5).flush t = true ∧ i ∈ ((cfg1.win 5).blk t).view.set := by
  have hi0 : (i 0).val < 100000 := (i 0).isLt
  have hi1 : (i 1).val < 10 := (i 1).isLt
  have hlt : (i 0).val / 5000 < cfg1.N := by rw [show cfg1.N = 20 from N_1]; omega
  refine ⟨⟨(i 0).val / 5000, hlt⟩, flush1_5 _, ?_⟩
  rw [mem_blk1]
  obtain ⟨-, -, -, -, -, -, -, -, -, -, e50, e51⟩ := idx1 ⟨(i 0).val / 5000, hlt⟩
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 10 ≤ (i 1).val
      ∧ (i 1).val < win1_5.index ⟨(i 0).val / 5000, hlt⟩ (1 : Fin 2) * 10 + 10
    rw [e51]; omega

/-- After the second launch its output array is `Gcn.act` of the arrays at entry. -/
theorem final1 (c : Dev nD) :
    (dat1 V c).arrAt 5 cfg1.N
      = Cert.Gcn.act (V c main_v27) (V c main_v16) (V c main_v28) (V c main_v15) (V c main_arg4) :=
  (dat1 V c).arrAt_eq_of_cover 5 _ (fun t _ => flushed1_eq V c t) cover1

/-! ## The third launch: the second layer finished -/

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2_eq (c : Dev nD) (t : Fin cfg2.N) :
    (dat2 V c).flushed 3 t = ((cfg2.win 3).blk t).view.read (Elt Ideal)
      (Cert.Gcn.fin (V c main_v39) (V c main_v16) (V c main_v40)) := by
  show (cfg2.win 3).cut (grid2.coords t) ((dat2 V c).after 3 t) = _
  rw [after2_3]
  unfold out2_3
  rw [View.canon_unit_zero hz]
  simp only [View.ld_unit_zero (S := S5000x10) hz, View.ld_unit_zero (S := S5000x1) hz, View.ld_unit_zero (S := S1x10) hz]
  obtain ⟨e00, e01, e10, e11, e20, e21, e30, e31⟩ := idx2 t
  funext j
  show k2_pay1 (iblk2 V c 0 t) (iblk2 V c 1 t) (iblk2 V c 2 t) j
    = Cert.Gcn.fin (V c main_v39) (V c main_v16) (V c main_v40) (((cfg2.win 3).blk t).view.emb j)
  refine body2_at (V c main_v39) (V c main_v16) (V c main_v40) (iblk2 V c 0 t) (iblk2 V c 1 t) (iblk2 V c 2 t)
    j (((cfg2.win 3).blk t).view.emb j) ?_ ?_ ?_
  · show V c main_v39 (((cfg2.win 0).blk t).view.emb (ix2 (j 0) (j 1)))
      = V c main_v39 (ix2 ((((cfg2.win 3).blk t).view.emb j) 0) ((((cfg2.win 3).blk t).view.emb j) 1))
    refine congrArg (V c main_v39) (funext fun a => Fin.ext ?_)
    match a with
    | ⟨0, _⟩ =>
      show win2_0.index t (0 : Fin 2) * 5000 + 1 * (j 0).val = win2_3.index t (0 : Fin 2) * 5000 + 1 * (j 0).val
      rw [e00, e30]
    | ⟨1, _⟩ =>
      show win2_0.index t (1 : Fin 2) * 10 + 1 * (j 1).val = win2_3.index t (1 : Fin 2) * 10 + 1 * (j 1).val
      rw [e01, e31]
  · show V c main_v16 (((cfg2.win 1).blk t).view.emb (ix2 (j 0) (0 : Fin 1)))
      = V c main_v16 (ix2 ((((cfg2.win 3).blk t).view.emb j) 0) (0 : Fin 1))
    refine congrArg (V c main_v16) (funext fun a => Fin.ext ?_)
    match a with
    | ⟨0, _⟩ =>
      show win2_1.index t (0 : Fin 2) * 5000 + 1 * (j 0).val = win2_3.index t (0 : Fin 2) * 5000 + 1 * (j 0).val
      rw [e10, e30]
    | ⟨1, _⟩ =>
      show win2_1.index t (1 : Fin 2) * 1 + 1 * 0 = 0
      rw [e11]
  · show V c main_v40 (((cfg2.win 2).blk t).view.emb (ix2 (0 : Fin 1) (j 1)))
      = V c main_v40 (ix2 (0 : Fin 1) ((((cfg2.win 3).blk t).view.emb j) 1))
    refine congrArg (V c main_v40) (funext fun a => Fin.ext ?_)
    match a with
    | ⟨0, _⟩ =>
      show win2_2.index t (0 : Fin 2) * 1 + 1 * 0 = 0
      rw [e20]
    | ⟨1, _⟩ =>
      show win2_2.index t (1 : Fin 2) * 10 + 1 * (j 1).val = win2_3.index t (1 : Fin 2) * 10 + 1 * (j 1).val
      rw [e21, e31]

theorem mem_blk2 (t : Fin cfg2.N) (i : S100000x10.Idx) :
    i ∈ ((cfg2.win 3).blk t).view.set ↔ ∀ a : Fin 2, win2_3.index t a * S5000x10.size a ≤ (i a).val
      ∧ (i a).val < win2_3.index t a * S5000x10.size a + S5000x10.size a := by
  show i ∈ ((View.whole main_v41).slice (win2_3.rect t)).set ↔ _
  rw [View.set_slice_whole, Rect.mem_set_unit]
  exact Iff.rfl

theorem cover2 (i : S100000x10.Idx) :
    ∃ t : Fin cfg2.N, (cfg2.win 3).flush t = true ∧ i ∈ ((cfg2.win 3).blk t).view.set := by
  have hi0 : (i 0).val < 100000 := (i 0).isLt
  have hi1 : (i 1).val < 10 := (i 1).isLt
  have hlt : (i 0).val / 5000 < cfg2.N := by rw [show cfg2.N = 20 from N_2]; omega
  refine ⟨⟨(i 0).val / 5000, hlt⟩, flush2_3 _, ?_⟩
  rw [mem_blk2]
  obtain ⟨-, -, -, -, -, -, e30, e31⟩ := idx2 ⟨(i 0).val / 5000, hlt⟩
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hlt⟩ (1 : Fin 2) * 10 ≤ (i 1).val
      ∧ (i 1).val < win2_3.index ⟨(i 0).val / 5000, hlt⟩ (1 : Fin 2) * 10 + 10
    rw [e31]; omega

/-- After the third launch its output array is `Gcn.fin` of the arrays at entry. -/
theorem final2 (c : Dev nD) :
    (dat2 V c).arrAt 3 cfg2.N = Cert.Gcn.fin (V c main_v39) (V c main_v16) (V c main_v40) :=
  (dat2 V c).arrAt_eq_of_cover 3 _ (fun t _ => flushed2_eq V c t) cover2

end Cert.KernelIdeal.KV

end
-- ==== Proof.KHost.lean ====
/-
  The kernel program's buffers at each boundary between its segments, and its result as one term.

  Between two launches the host gathers the projected rows by each edge's source node and adds them up by the
  edge's destination node (`agg16`, `agg10`: the printed gather and scatter-add as one function of the edge
  lists and the projected array). Every other buffer a later segment reads is carried unchanged across the
  segments that do not write it. Walking the boundaries back from the result gives it as
  `fin (agg10 (act (agg16 (proj x s W₁)) d b₁ s W₂)) d b₂` of the argument arrays, the two edge lists and the
  two per-node columns as the first stretch of host operations leaves them.
-/
import proofs.«164237_j20950850470456_1_alg».proof.Proof.Gen.KernelIdeal.Frame
import proofs.«164237_j20950850470456_1_alg».proof.Proof.KBlocks
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

/-- Sixteen-wide rows gathered by source node and added up by destination node. -/
def agg16 (src dst : IVec S3200000 32)
    (h : FVec Ideal S100000x16 .f32) : FVec Ideal S100000x16 .f32 :=
  Host.scatterAdd (F := Ideal) (φ := .f32) scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (Host.gather gather_S100000x16_S3200000x1_S3200000x16_1_0_n_n_0_1_116 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- Ten-wide rows gathered by source node and added up by destination node. -/
def agg10 (src dst : IVec S3200000 32)
    (h : FVec Ideal S100000x10 .f32) : FVec Ideal S100000x10 .f32 :=
  Host.scatterAdd (F := Ideal) (φ := .f32) scatter_S100000x10_S3200000x1_S3200000x10_1_0_0_1
    (broadcastInDim S100000x10 ![] bcast_S_S100000x10 (constant S_ .f32 0x00000000#32))
    (broadcastInDim S3200000x1 ![0] bcast_S3200000_S3200000x1_0 dst)
    (Host.gather gather_S100000x10_S3200000x1_S3200000x10_1_0_n_n_0_1_110 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

variable (m : (ℓ : Loc nD τ sig) → Buf (Elt Ideal) ℓ) (ρ : Dev nD → PrngReg)

/-! ## Across the first launch -/

theorem W6_v1 (c : Dev nD) : W6 m ρ c (Proc.devRef .tc main_v1) = W5 m ρ c (Proc.devRef .tc main_v1) :=
  W6_of_ne m ρ c main_v1 (by decide)
theorem W6_v3 (c : Dev nD) : W6 m ρ c (Proc.devRef .tc main_v3) = W5 m ρ c (Proc.devRef .tc main_v3) :=
  W6_of_ne m ρ c main_v3 (by decide)
theorem W6_v16 (c : Dev nD) : W6 m ρ c (Proc.devRef .tc main_v16) = W5 m ρ c (Proc.devRef .tc main_v16) :=
  W6_of_ne m ρ c main_v16 (by decide)
theorem W6_arg3 (c : Dev nD) : W6 m ρ c (Proc.devRef .tc main_arg3) = W5 m ρ c (Proc.devRef .tc main_arg3) :=
  W6_of_ne m ρ c main_arg3 (by decide)
theorem W6_arg4 (c : Dev nD) : W6 m ρ c (Proc.devRef .tc main_arg4) = W5 m ρ c (Proc.devRef .tc main_arg4) :=
  W6_of_ne m ρ c main_arg4 (by decide)
theorem W6_arg5 (c : Dev nD) : W6 m ρ c (Proc.devRef .tc main_arg5) = W5 m ρ c (Proc.devRef .tc main_arg5) :=
  W6_of_ne m ρ c main_arg5 (by decide)
theorem W6_v15 (c : Dev nD) : W6 m ρ c (Proc.devRef .tc main_v15) = W5 m ρ c (Proc.devRef .tc main_v15) :=
  (W6_arr m ρ c 1).trans (((dat0 (V5 m ρ) c).arrAt_in 1 rfl _).trans (A_eq0 (V5 m ρ) c 1))

/-- The first launch leaves the projection of the arrays it finds. -/
theorem W6_v17 (c : Dev nD) : W6 m ρ c (Proc.devRef .tc main_v17)
    = Cert.Gcn.proj (W5 m ρ c (Proc.devRef .tc main_arg0)) (W5 m ρ c (Proc.devRef .tc main_v15)) (W5 m ρ c (Proc.devRef .tc main_arg2)) :=
  (W6_arr m ρ c 3).trans (final0 (V5 m ρ) c)

/-! ## Across the first aggregation -/

theorem W7_v1 (c : Dev nD) : W7 m ρ c (Proc.devRef .tc main_v1) = W6 m ρ c (Proc.devRef .tc main_v1) := by
  show StableHlo.after hostOps1 (W6 m ρ c) (Proc.devRef .tc main_v1) = _
  after_results
theorem W7_v3 (c : Dev nD) : W7 m ρ c (Proc.devRef .tc main_v3) = W6 m ρ c (Proc.devRef .tc main_v3) := by
  show StableHlo.after hostOps1 (W6 m ρ c) (Proc.devRef .tc main_v3) = _
  after_results
theorem W7_v15 (c : Dev nD) : W7 m ρ c (Proc.devRef .tc main_v15) = W6 m ρ c (Proc.devRef .tc main_v15) := by
  show StableHlo.after hostOps1 (W6 m ρ c) (Proc.devRef .tc main_v15) = _
  after_results
theorem W7_v16 (c : Dev nD) : W7 m ρ c (Proc.devRef .tc main_v16) = W6 m ρ c (Proc.devRef .tc main_v16) := by
  show StableHlo.after hostOps1 (W6 m ρ c) (Proc.devRef .tc main_v16) = _
  after_results
theorem W7_arg4 (c : Dev nD) : W7 m ρ c (Proc.devRef .tc main_arg4) = W6 m ρ c (Proc.devRef .tc main_arg4) := by
  show StableHlo.after hostOps1 (W6 m ρ c) (Proc.devRef .tc main_arg4) = _
  after_results
theorem W7_arg5 (c : Dev nD) : W7 m ρ c (Proc.devRef .tc main_arg5) = W6 m ρ c (Proc.devRef .tc main_arg5) := by
  show StableHlo.after hostOps1 (W6 m ρ c) (Proc.devRef .tc main_arg5) = _
  after_results

theorem W7_v27 (c : Dev nD) : W7 m ρ c (Proc.devRef .tc main_v27)
    = agg16 (W6 m ρ c (Proc.devRef .tc main_v1)) (W6 m ρ c (Proc.devRef .tc main_v3)) (W6 m ρ c (Proc.devRef .tc main_v17)) := by
  show StableHlo.after hostOps1 (W6 m ρ c) (Proc.devRef .tc main_v27) = _
  after_results
  rfl

theorem W7_v28 (c : Dev nD) : W7 m ρ c (Proc.devRef .tc main_v28)
    = shapeCast S1x16 (W6 m ρ c (Proc.devRef .tc main_arg3) : (⟨S16, .f32⟩ : BufTy).Contents (Elt Ideal)) shapeCasts_S16_S1x16 := by
  show StableHlo.after hostOps1 (W6 m ρ c) (Proc.devRef .tc main_v28) = _
  after_results
  rfl

/-! ## Across the second launch -/

theorem W8_v1 (c : Dev nD) : W8 m ρ c (Proc.devRef .tc main_v1) = W7 m ρ c (Proc.devRef .tc main_v1) :=
  W8_of_ne m ρ c main_v1 (by decide)
theorem W8_v3 (c : Dev nD) : W8 m ρ c (Proc.devRef .tc main_v3) = W7 m ρ c (Proc.devRef .tc main_v3) :=
  W8_of_ne m ρ c main_v3 (by decide)
theorem W8_arg5 (c : Dev nD) : W8 m ρ c (Proc.devRef .tc main_arg5) = W7 m ρ c (Proc.devRef .tc main_arg5) :=
  W8_of_ne m ρ c main_arg5 (by decide)
theorem W8_v16 (c : Dev nD) : W8 m ρ c (Proc.devRef .tc main_v16) = W7 m ρ c (Proc.devRef .tc main_v16) :=
  (W8_arr m ρ c 1).trans (((dat1 (V7 m ρ) c).arrAt_in 1 rfl _).trans (A_eq1 (V7 m ρ) c 1))

theorem W8_v29 (c : Dev nD) : W8 m ρ c (Proc.devRef .tc main_v29)
    = Cert.Gcn.act (W7 m ρ c (Proc.devRef .tc main_v27)) (W7 m ρ c (Proc.devRef .tc main_v16)) (W7 m ρ c (Proc.devRef .tc main_v28))
        (W7 m ρ c (Proc.devRef .tc main_v15)) (W7 m ρ c (Proc.devRef .tc main_arg4)) :=
  (W8_arr m ρ c 5).trans (final1 (V7 m ρ) c)

/-! ## Across the second aggregation -/

theorem W9_v16 (c : Dev nD) : W9 m ρ c (Proc.devRef .tc main_v16) = W8 m ρ c (Proc.devRef .tc main_v16) := by
  show StableHlo.after hostOps2 (W8 m ρ c) (Proc.devRef .tc main_v16) = _
  after_results

theorem W9_v39 (c : Dev nD) : W9 m ρ c (Proc.devRef .tc main_v39)
    = agg10 (W8 m ρ c (Proc.devRef .tc main_v1)) (W8 m ρ c (Proc.devRef .tc main_v3)) (W8 m ρ c (Proc.devRef .tc main_v29)) := by
  show StableHlo.after hostOps2 (W8 m ρ c) (Proc.devRef .tc main_v39) = _
  after_results
  rfl

theorem W9_v40 (c : Dev nD) : W9 m ρ c (Proc.devRef .tc main_v40)
    = shapeCast S1x10 (W8 m ρ c (Proc.devRef .tc main_arg5) : (⟨S10, .f32⟩ : BufTy).Contents (Elt Ideal)) shapeCasts_S10_S1x10 := by
  show StableHlo.after hostOps2 (W8 m ρ c) (Proc.devRef .tc main_v40) = _
  after_results
  rfl

/-! ## The third launch, and the result -/

theorem W10_v41 (c : Dev nD) : W10 m ρ c (Proc.devRef .tc main_v41)
    = Cert.Gcn.fin (W9 m ρ c (Proc.devRef .tc main_v39)) (W9 m ρ c (Proc.devRef .tc main_v16)) (W9 m ρ c (Proc.devRef .tc main_v40)) :=
  (W10_arr m ρ c 3).trans (final2 (V9 m ρ) c)

/-- The result, walked back to the contents the first launch is entered from. -/
theorem result_eq (c : Dev nD) : W10 m ρ c (Proc.devRef .tc main_v41)
    = Cert.Gcn.fin
        (agg10 (W5 m ρ c (Proc.devRef .tc main_v1)) (W5 m ρ c (Proc.devRef .tc main_v3))
          (Cert.Gcn.act
            (agg16 (W5 m ρ c (Proc.devRef .tc main_v1)) (W5 m ρ c (Proc.devRef .tc main_v3))
              (Cert.Gcn.proj (W5 m ρ c (Proc.devRef .tc main_arg0)) (W5 m ρ c (Proc.devRef .tc main_v15))
                (W5 m ρ c (Proc.devRef .tc main_arg2))))
            (W5 m ρ c (Proc.devRef .tc main_v16))
            (shapeCast S1x16 (W5 m ρ c (Proc.devRef .tc main_arg3) : (⟨S16, .f32⟩ : BufTy).Contents (Elt Ideal)) shapeCasts_S16_S1x16)
            (W5 m ρ c (Proc.devRef .tc main_v15))
            (W5 m ρ c (Proc.devRef .tc main_arg4))))
        (W5 m ρ c (Proc.devRef .tc main_v16))
        (shapeCast S1x10 (W5 m ρ c (Proc.devRef .tc main_arg5) : (⟨S10, .f32⟩ : BufTy).Contents (Elt Ideal)) shapeCasts_S10_S1x10) := by
  rw [W10_v41, W9_v39, W9_v16, W9_v40, W8_v29, W8_v1, W8_v3, W8_arg5, W8_v16, W7_v27, W7_v28, W7_v1, W7_v3, W7_v15, W7_v16,
    W7_arg4, W7_arg5, W6_v17, W6_v1, W6_v3, W6_v15, W6_v16, W6_arg3, W6_arg4, W6_arg5]

end Cert.KernelIdeal.KV

end
-- ==== Proof.KEntry.lean ====
/-
  What the first stretch of host operations leaves for the launches.

  Before the first launch the host cuts the edge list into its source row and its destination row, counts each
  node's out-edges and in-edges by adding a one per edge, clamps the counts below at one and takes the inverse
  square root, and lays each of the two per-node vectors out as a column. The argument arrays are not written.
  The stretch is read one short line at a time, each from ANY contents it may start from.
-/
import proofs.«164237_j20950850470456_1_alg».proof.Proof.Gen.KernelIdeal.Frame
import Idealize.ShloMosaic.Lib.StableHlo.Run
import Idealize.ShloMosaic.PureOps.Ideal

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

/-- The edges' source nodes: row 0 of the edge list. -/
def srcOf (x1 : IVec S2x3200000 32) : IVec S3200000 32 :=
  shapeCast S3200000 (extractStridedSlice S1x3200000 ![0, 0] x1 slices_S2x3200000_S1x3200000_0_0) shapeCasts_S1x3200000_S3200000

/-- The edges' destination nodes: row 1 of the edge list. -/
def dstOf (x1 : IVec S2x3200000 32) : IVec S3200000 32 :=
  shapeCast S3200000 (extractStridedSlice S1x3200000 ![1, 0] x1 slices_S2x3200000_S1x3200000_1_0) shapeCasts_S1x3200000_S3200000

/-- Each node's edge count over the given end of every edge: a one added per edge. -/
def degOf (ix : IVec S3200000 32) : FVec Ideal S100000 .f32 :=
  Host.scatterAdd (F := Ideal) (φ := .f32) scatter_S100000_S3200000x1_S3200000_n_0_0_1
    (broadcastInDim S100000 ![] bcast_S_S100000 (constant S_ .f32 0x00000000#32))
    (broadcastInDim S3200000x1 ![0] bcast_S3200000_S3200000x1_0 ix)
    (broadcastInDim S3200000 ![] bcast_S_S3200000 (constant S_ .f32 0x3F800000#32))

/-- A count clamped below at the given scalar, then its inverse square root. -/
def clampRsqrt (one : FVec Ideal S_ .f32) (deg : FVec Ideal S100000 .f32) : FVec Ideal S100000 .f32 :=
  Host.rsqrt (F := Ideal) (maximumf (broadcastInDim S100000 ![] bcast_S_S100000 (id one)) deg)

/-- The inverse square root of each node's edge count, clamped below at one. -/
def normOf (ix : IVec S3200000 32) : FVec Ideal S100000 .f32 :=
  clampRsqrt (constant (F := Ideal) S_ .f32 0x3F800000#32) (degOf ix)

/-! ## The five short lines, each from any contents -/

theorem h0_v7 (U : Valuation τ sig (Elt Ideal)) :
    StableHlo.after hostOps0 U (Proc.devRef .tc main_v7) = degOf (srcOf (U (Proc.devRef .tc main_arg1))) := by
  after_results
  unfold degOf srcOf
  rfl

theorem h0_v10 (U : Valuation τ sig (Elt Ideal)) :
    StableHlo.after hostOps0 U (Proc.devRef .tc main_v10) = degOf (dstOf (U (Proc.devRef .tc main_arg1))) := by
  after_results
  unfold degOf dstOf
  rfl

theorem h0_cst2 (U : Valuation τ sig (Elt Ideal)) :
    StableHlo.after hostOps0 U (Proc.devRef .tc main_cst_2) = constant (F := Ideal) S_ .f32 0x3F800000#32 := by
  after_results

theorem h1_v11 (U : Valuation τ sig (Elt Ideal)) :
    (StableHlo.after hostOps0_1 U (Proc.devRef .tc main_v11) : FVec Ideal S100000 .f32)
      = maximumf (F := Ideal) (φ := .f32) (broadcastInDim S100000 ![] bcast_S_S100000 (id (U (Proc.devRef .tc main_cst_2) : FVec Ideal S_ .f32)))
          (U (Proc.devRef .tc main_v7) : FVec Ideal S100000 .f32) := by
  after_results
  rfl
theorem h1_v10 (U : Valuation τ sig (Elt Ideal)) :
    StableHlo.after hostOps0_1 U (Proc.devRef .tc main_v10) = U (Proc.devRef .tc main_v10) := by
  after_results

theorem h2_v12 (U : Valuation τ sig (Elt Ideal)) :
    (StableHlo.after hostOps0_2 U (Proc.devRef .tc main_v12) : FVec Ideal S100000 .f32)
      = Host.rsqrt (F := Ideal) (φ := .f32) (U (Proc.devRef .tc main_v11) : FVec Ideal S100000 .f32) := by
  after_results

theorem h2_v10 (U : Valuation τ sig (Elt Ideal)) :
    StableHlo.after hostOps0_2 U (Proc.devRef .tc main_v10) = U (Proc.devRef .tc main_v10) := by
  after_results

theorem h2_cst3 (U : Valuation τ sig (Elt Ideal)) :
    StableHlo.after hostOps0_2 U (Proc.devRef .tc main_cst_3) = constant (F := Ideal) S_ .f32 0x3F800000#32 := by
  after_results

theorem h3_v13 (U : Valuation τ sig (Elt Ideal)) :
    (StableHlo.after hostOps0_3 U (Proc.devRef .tc main_v13) : FVec Ideal S100000 .f32)
      = maximumf (F := Ideal) (φ := .f32) (broadcastInDim S100000 ![] bcast_S_S100000 (id (U (Proc.devRef .tc main_cst_3) : FVec Ideal S_ .f32)))
          (U (Proc.devRef .tc main_v10) : FVec Ideal S100000 .f32) := by
  after_results
  rfl
theorem h3_v12 (U : Valuation τ sig (Elt Ideal)) :
    StableHlo.after hostOps0_3 U (Proc.devRef .tc main_v12) = U (Proc.devRef .tc main_v12) := by
  after_results

theorem h4_v15 (U : Valuation τ sig (Elt Ideal)) :
    (StableHlo.after hostOps0_4 U (Proc.devRef .tc main_v15) : FVec Ideal S100000x1 .f32)
      = shapeCast (α := Ideal .f32) S100000x1 (U (Proc.devRef .tc main_v12) : FVec Ideal S100000 .f32) shapeCasts_S100000_S100000x1 := by
  after_results
  rfl
theorem h4_v16 (U : Valuation τ sig (Elt Ideal)) :
    (StableHlo.after hostOps0_4 U (Proc.devRef .tc main_v16) : FVec Ideal S100000x1 .f32)
      = shapeCast (α := Ideal .f32) S100000x1 (Host.rsqrt (F := Ideal) (φ := .f32) (U (Proc.devRef .tc main_v13) : FVec Ideal S100000 .f32))
          shapeCasts_S100000_S100000x1 := by
  after_results
  rfl

variable (m : (ℓ : Loc nD τ sig) → Buf (Elt Ideal) ℓ) (ρ : Dev nD → PrngReg)

/-! ## The contents the first launch is entered from -/

theorem W5_arg0 (c : Dev nD) : W5 m ρ c (Proc.devRef .tc main_arg0) = m ((c.tc : Thread nD τ).loc main_arg0) := by
  show StableHlo.after hostOps0_4 (W4 m ρ c) (Proc.devRef .tc main_arg0) = _
  after_results
theorem W5_arg2 (c : Dev nD) : W5 m ρ c (Proc.devRef .tc main_arg2) = m ((c.tc : Thread nD τ).loc main_arg2) := by
  show StableHlo.after hostOps0_4 (W4 m ρ c) (Proc.devRef .tc main_arg2) = _
  after_results
theorem W5_arg3 (c : Dev nD) : W5 m ρ c (Proc.devRef .tc main_arg3) = m ((c.tc : Thread nD τ).loc main_arg3) := by
  show StableHlo.after hostOps0_4 (W4 m ρ c) (Proc.devRef .tc main_arg3) = _
  after_results
theorem W5_arg4 (c : Dev nD) : W5 m ρ c (Proc.devRef .tc main_arg4) = m ((c.tc : Thread nD τ).loc main_arg4) := by
  show StableHlo.after hostOps0_4 (W4 m ρ c) (Proc.devRef .tc main_arg4) = _
  after_results
theorem W5_arg5 (c : Dev nD) : W5 m ρ c (Proc.devRef .tc main_arg5) = m ((c.tc : Thread nD τ).loc main_arg5) := by
  show StableHlo.after hostOps0_4 (W4 m ρ c) (Proc.devRef .tc main_arg5) = _
  after_results

theorem W5_v1 (c : Dev nD) : W5 m ρ c (Proc.devRef .tc main_v1) = srcOf (m ((c.tc : Thread nD τ).loc main_arg1)) := by
  show StableHlo.after hostOps0_4 (W4 m ρ c) (Proc.devRef .tc main_v1) = _
  after_results
  unfold srcOf
  rfl

theorem W5_v3 (c : Dev nD) : W5 m ρ c (Proc.devRef .tc main_v3) = dstOf (m ((c.tc : Thread nD τ).loc main_arg1)) := by
  show StableHlo.after hostOps0_4 (W4 m ρ c) (Proc.devRef .tc main_v3) = _
  after_results
  unfold dstOf
  rfl

/-- The out-degree factor as the column the launches stage. -/
theorem W5_v15 (c : Dev nD) : W5 m ρ c (Proc.devRef .tc main_v15)
    = shapeCast S100000x1 (normOf (srcOf (m ((c.tc : Thread nD τ).loc main_arg1)))) shapeCasts_S100000_S100000x1 := by
  refine (h4_v15 (W4 m ρ c)).trans ?_
  refine congrArg (shapeCast (α := Ideal .f32) (s := S100000) S100000x1 · shapeCasts_S100000_S100000x1) ?_
  refine (h3_v12 (W3 m ρ c)).trans ?_
  refine (h2_v12 (W2 m ρ c)).trans ?_
  refine congrArg (Host.rsqrt (F := Ideal) (φ := .f32) (s := S100000)) ?_
  refine (h1_v11 (W1 m ρ c)).trans ?_
  have e1 : W1 m ρ c (Proc.devRef .tc main_cst_2) = constant (F := Ideal) S_ .f32 0x3F800000#32 := h0_cst2 (W0 m ρ c)
  have e2 : W1 m ρ c (Proc.devRef .tc main_v7) = degOf (srcOf (m ((c.tc : Thread nD τ).loc main_arg1))) := h0_v7 (W0 m ρ c)
  rw [e1, e2]

/-- The in-degree factor as the column the launches stage. -/
theorem W5_v16 (c : Dev nD) : W5 m ρ c (Proc.devRef .tc main_v16)
    = shapeCast S100000x1 (normOf (dstOf (m ((c.tc : Thread nD τ).loc main_arg1)))) shapeCasts_S100000_S100000x1 := by
  refine (h4_v16 (W4 m ρ c)).trans ?_
  refine congrArg (shapeCast (α := Ideal .f32) (s := S100000) S100000x1 · shapeCasts_S100000_S100000x1) ?_
  refine congrArg (Host.rsqrt (F := Ideal) (φ := .f32) (s := S100000)) ?_
  refine (h3_v13 (W3 m ρ c)).trans ?_
  have e1 : W3 m ρ c (Proc.devRef .tc main_cst_3) = constant (F := Ideal) S_ .f32 0x3F800000#32 := h2_cst3 (W2 m ρ c)
  have e2 : W3 m ρ c (Proc.devRef .tc main_v10) = degOf (dstOf (m ((c.tc : Thread nD τ).loc main_arg1))) :=
    (h2_v10 (W2 m ρ c)).trans ((h1_v10 (W1 m ρ c)).trans (h0_v10 (W0 m ρ c)))
  rw [e1, e2]

end Cert.KernelIdeal.KV

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.RefSide.lean ====
/-
  The reference program, stage by stage, as the same three dense pieces around its two aggregations.

  The reference scales the rows of x by the per-node column, applies the 128×16 weight with one general dot
  product, gathers and adds up over the edges, finishes the layer (scale, bias, clamp at zero), scales again,
  applies the 16×10 weight, aggregates again and finishes. A general dot product with the plain dimension
  numbers is the plain sum of products, and a per-node column or a bias row broadcast over an array reads the
  column's or the row's entry, so the dense stages are `Gcn.proj`, `Gcn.act`, `Gcn.fin`; the aggregations are
  kept as they are printed, as functions of the array they gather from.
-/
import proofs.«164237_j20950850470456_1_alg».proof.Proof.Gen.ReferenceIdeal.Read
import proofs.«164237_j20950850470456_1_alg».proof.Proof.Spec
import proofs.«164237_j20950850470456_1_alg».proof.Proof.LibProduct
import proofs.«164237_j20950850470456_1_alg».proof.Proof.LibColumnInDim
import proofs.«164237_j20950850470456_1_alg».proof.Proof.LibRowInDim
import Idealize.ShloMosaic.Lib.ValueIdx
import Idealize.ShloMosaic.Lib.Pipeline.Value

noncomputable section

open scoped BigOperators

namespace Cert.ReferenceIdeal.RefValue

open Cert.ReferenceIdeal Cert.ReferenceIdeal.Read Cert.ReferenceIdeal.Facts₀ Cert.ReferenceIdeal.Facts
open Idealize.ShloMosaic Idealize.ShloMosaic.ValueIdx

/-- The reference's first aggregation: sixteen-wide rows gathered by source node, added up by destination node. -/
def agg16 (x1 : (⟨S2x3200000, .i32⟩ : BufTy).Contents (Elt Ideal))
    (h : FVec Ideal S100000x16 .f32) : FVec Ideal S100000x16 .f32 :=
  Host.scatterAdd (F := Ideal) (φ := .f32) scatter_S100000x16_S3200000x1_S3200000x16_1_0_0_1 (val_main_v26 (F := Ideal)) (val_main_v27 (F := Ideal) x1)
    (Host.gather gather_S100000x16_S3200000x1_S3200000x16_1_0_n_n_0_1_116 h (val_main_v24 (F := Ideal) x1))

/-- The reference's second aggregation, on ten-wide rows. -/
def agg10 (x1 : (⟨S2x3200000, .i32⟩ : BufTy).Contents (Elt Ideal))
    (h : FVec Ideal S100000x10 .f32) : FVec Ideal S100000x10 .f32 :=
  Host.scatterAdd (F := Ideal) (φ := .f32) scatter_S100000x10_S3200000x1_S3200000x10_1_0_0_1 (val_main_v47 (F := Ideal)) (val_main_v48 (F := Ideal) x1)
    (Host.gather gather_S100000x10_S3200000x1_S3200000x10_1_0_n_n_0_1_110 h (val_main_v45 (F := Ideal) x1))

variable (x0 : (⟨S100000x128, .f32⟩ : BufTy).Contents (Elt Ideal)) (x1 : (⟨S2x3200000, .i32⟩ : BufTy).Contents (Elt Ideal))
  (x2 : (⟨S128x16, .f32⟩ : BufTy).Contents (Elt Ideal)) (x3 : (⟨S16, .f32⟩ : BufTy).Contents (Elt Ideal))
  (x4 : (⟨S16x10, .f32⟩ : BufTy).Contents (Elt Ideal)) (x5 : (⟨S10, .f32⟩ : BufTy).Contents (Elt Ideal))

/-- The first dense stage is the projection. -/
theorem v18_eq : val_main_v18 (F := Ideal) x0 x1 x2
    = Cert.Gcn.proj (n := 100000) (k := 128) (w := 16) x0 (val_main_v15 (F := Ideal) x1) x2 := by
  unfold val_main_v18
  refine (Cert.Product.dotGeneral_eq dot_S100000x128_S128x16_S100000x16_1_0_0_1_n_n rfl none
    (val_main_v17 (F := Ideal) x0 x1) x2).trans ?_
  funext j
  obtain ⟨p, q, rfl⟩ : ∃ (p : Fin 100000) (q : Fin 16), j = ix2 p q := ⟨j 0, j 1, eq_ix2 j⟩
  rw [Cert.Product.prod_apply, Cert.Gcn.proj_apply]
  refine Finset.sum_congr rfl fun c _ => ?_
  refine congrArg (· * x2 (ix2 c q)) ?_
  unfold val_main_v17
  rw [mulf_apply]
  refine congrArg (x0 (ix2 p c) * ·) ?_
  unfold val_main_v16
  exact Cert.ColumnInDim.broadcastInDim_lanes (val_main_v15 (F := Ideal) x1) bcast_S100000x1_S100000x128_0_1 p c

/-- The first aggregation reads the first dense stage. -/
theorem v28_eq : val_main_v28 (F := Ideal) x0 x1 x2 = agg16 x1 (val_main_v18 (F := Ideal) x0 x1 x2) := rfl

/-- The second dense stage is `Gcn.act` of the first aggregation. -/
theorem v39_eq : val_main_v39 (F := Ideal) x0 x1 x2 x3 x4
    = Cert.Gcn.act (n := 100000) (k := 16) (w := 10) (val_main_v28 (F := Ideal) x0 x1 x2) (val_main_v29 (F := Ideal) x1)
        (val_main_v32 (F := Ideal) x3) (val_main_v36 (F := Ideal) x1) x4 := by
  unfold val_main_v39
  refine (Cert.Product.dotGeneral_eq dot_S100000x16_S16x10_S100000x10_1_0_0_1_n_n rfl none
    (val_main_v38 (F := Ideal) x0 x1 x2 x3) x4).trans ?_
  funext j
  obtain ⟨p, q, rfl⟩ : ∃ (p : Fin 100000) (q : Fin 10), j = ix2 p q := ⟨j 0, j 1, eq_ix2 j⟩
  rw [Cert.Product.prod_apply, Cert.Gcn.act_apply]
  refine Finset.sum_congr rfl fun c _ => ?_
  refine congrArg (· * x4 (ix2 c q)) ?_
  have e37 : val_main_v37 (F := Ideal) x1 (ix2 p c) = val_main_v36 (F := Ideal) x1 (ix2 p (0 : Fin 1)) := by
    unfold val_main_v37
    exact Cert.ColumnInDim.broadcastInDim_lanes (val_main_v36 (F := Ideal) x1) bcast_S100000x1_S100000x16_0_1 p c
  have e30 : val_main_v30 (F := Ideal) x1 (ix2 p c) = val_main_v29 (F := Ideal) x1 (ix2 p (0 : Fin 1)) := by
    unfold val_main_v30
    exact Cert.ColumnInDim.broadcastInDim_lanes (val_main_v29 (F := Ideal) x1) bcast_S100000x1_S100000x16_0_1 p c
  have e33 : val_main_v33 (F := Ideal) x3 (ix2 p c) = val_main_v32 (F := Ideal) x3 (ix2 (0 : Fin 1) c) := by
    unfold val_main_v33
    exact Cert.RowInDim.broadcastInDim_rows (by decide) (val_main_v32 (F := Ideal) x3) bcast_S1x16_S100000x16_0_1 p c
  have e0 : val_main_call2_v0 (F := Ideal) (ix2 p c) = Ideal.ofBits .f32 0x00000000#32 := by
    unfold val_main_call2_v0 val_main_call2_cst
    exact broadcastInDim_apply _ bcast_S_S100000x16 _ (ix2 p c) ix0 (fun a => a.elim0)
  unfold val_main_v38
  rw [mulf_apply, e37]
  refine congrArg (· * val_main_v36 (F := Ideal) x1 (ix2 p (0 : Fin 1))) ?_
  unfold val_main_v35
  rw [maximumf_apply, e0]
  refine congrArg (max · (Ideal.ofBits .f32 0x00000000#32)) ?_
  unfold val_main_v34
  rw [addf_apply, e33]
  refine congrArg (· + val_main_v32 (F := Ideal) x3 (ix2 (0 : Fin 1) c)) ?_
  unfold val_main_v31
  rw [mulf_apply, e30]

/-- The second aggregation reads the second dense stage. -/
theorem v49_eq : val_main_v49 (F := Ideal) x0 x1 x2 x3 x4 = agg10 x1 (val_main_v39 (F := Ideal) x0 x1 x2 x3 x4) := rfl

/-- The result is `Gcn.fin` of the second aggregation. -/
theorem v55_eq : val_main_v55 (F := Ideal) x0 x1 x2 x3 x4 x5
    = Cert.Gcn.fin (n := 100000) (w := 10) (val_main_v49 (F := Ideal) x0 x1 x2 x3 x4) (val_main_v50 (F := Ideal) x1)
        (val_main_v53 (F := Ideal) x5) := by
  funext j
  obtain ⟨p, q, rfl⟩ : ∃ (p : Fin 100000) (q : Fin 10), j = ix2 p q := ⟨j 0, j 1, eq_ix2 j⟩
  rw [Cert.Gcn.fin_apply]
  have e51 : val_main_v51 (F := Ideal) x1 (ix2 p q) = val_main_v50 (F := Ideal) x1 (ix2 p (0 : Fin 1)) := by
    unfold val_main_v51
    exact Cert.ColumnInDim.broadcastInDim_lanes (val_main_v50 (F := Ideal) x1) bcast_S100000x1_S100000x10_0_1 p q
  have e54 : val_main_v54 (F := Ideal) x5 (ix2 p q) = val_main_v53 (F := Ideal) x5 (ix2 (0 : Fin 1) q) := by
    unfold val_main_v54
    exact Cert.RowInDim.broadcastInDim_rows (by decide) (val_main_v53 (F := Ideal) x5) bcast_S1x10_S100000x10_0_1 p q
  unfold val_main_v55
  rw [addf_apply, e54]
  refine congrArg (· + val_main_v53 (F := Ideal) x5 (ix2 (0 : Fin 1) q)) ?_
  unfold val_main_v52
  rw [mulf_apply, e51]

/-- The reference's result as the three dense pieces around the two aggregations. -/
theorem result_eq : val_main_v55 (F := Ideal) x0 x1 x2 x3 x4 x5
    = Cert.Gcn.fin (n := 100000) (w := 10)
        (agg10 x1 (Cert.Gcn.act (n := 100000) (k := 16) (w := 10)
          (agg16 x1 (Cert.Gcn.proj (n := 100000) (k := 128) (w := 16) x0 (val_main_v15 (F := Ideal) x1) x2))
          (val_main_v29 (F := Ideal) x1) (val_main_v32 (F := Ideal) x3) (val_main_v36 (F := Ideal) x1) x4))
        (val_main_v50 (F := Ideal) x1) (val_main_v53 (F := Ideal) x5) := by
  rw [v55_eq, v49_eq, v39_eq, v28_eq, v18_eq]

end Cert.ReferenceIdeal.RefValue

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.Bridge.lean ====
/-
  The two programs' shared pieces are the same terms.

  Both programs cut the edge list, count degrees, clamp and take inverse square roots with the same operations,
  and both gather by source and add up by destination with the same operations: the kernel program's terms and the
  reference's differ only in which program's copy of a shape or of a dimension record they name, and the copies
  are equal. A per-node vector reshaped to a column (kernel) and the vector broadcast into a column (reference)
  are one array, and so are a bias vector reshaped to a row and the vector broadcast into a row.
-/
import proofs.«164237_j20950850470456_1_alg».proof.Proof.KHost
import proofs.«164237_j20950850470456_1_alg».proof.Proof.KEntry
import proofs.«164237_j20950850470456_1_alg».proof.Proof.RefSide
import proofs.«164237_j20950850470456_1_alg».proof.Proof.LibColumnInDim
import proofs.«164237_j20950850470456_1_alg».proof.Proof.LibRowOfVector

set_option maxRecDepth 16384

noncomputable section

namespace Cert.Proof.Bridge

open Idealize.ShloMosaic
open Cert.KernelIdeal.KV Cert.ReferenceIdeal.Read Cert.ReferenceIdeal.RefValue

variable (x1 : IVec Cert.KernelIdeal.S2x3200000 32)

/-- The source row of the edge list, in both programs. -/
theorem src_eq : srcOf x1 = val_main_v1 (F := Ideal) x1 := by
  unfold srcOf val_main_v1 val_main_v0
  rfl

/-- The destination row of the edge list, in both programs. -/
theorem dst_eq : dstOf x1 = val_main_v3 (F := Ideal) x1 := by
  unfold dstOf val_main_v3 val_main_v2
  rfl

/-- The per-node factor over the out-degrees, in both programs. -/
theorem norm_src_eq : normOf (srcOf x1) = val_main_v12 (F := Ideal) x1 := by
  rw [src_eq]
  unfold normOf clampRsqrt degOf val_main_v12 val_main_v11 val_main_call0_v1 val_main_call0_v0 val_main_cst_2 val_main_v7 val_main_v5
    val_main_cst_0 val_main_v6 val_main_v4 val_main_cst
  rfl

/-- The per-node factor over the in-degrees, in both programs. -/
theorem norm_dst_eq : normOf (dstOf x1) = val_main_v14 (F := Ideal) x1 := by
  rw [dst_eq]
  unfold normOf clampRsqrt degOf val_main_v14 val_main_v13 val_main_call1_v1 val_main_call1_v0 val_main_cst_3 val_main_v10 val_main_v8
    val_main_cst_1 val_main_v9 val_main_v4 val_main_cst
  rfl

/-- The first aggregation, in both programs. -/
theorem agg16_eq (h : FVec Ideal Cert.KernelIdeal.S100000x16 .f32) :
    Cert.KernelIdeal.KV.agg16 (srcOf x1) (dstOf x1) h = Cert.ReferenceIdeal.RefValue.agg16 x1 h := by
  rw [src_eq, dst_eq]
  unfold Cert.KernelIdeal.KV.agg16 Cert.ReferenceIdeal.RefValue.agg16 val_main_v26 val_main_cst_5 val_main_v27 val_main_v24
    val_main_v23 val_main_v20 val_main_v22 val_main_v19 val_main_v21 val_main_c val_main_c_4
  rfl

/-- The second aggregation, in both programs. -/
theorem agg10_eq (h : FVec Ideal Cert.KernelIdeal.S100000x10 .f32) :
    Cert.KernelIdeal.KV.agg10 (srcOf x1) (dstOf x1) h = Cert.ReferenceIdeal.RefValue.agg10 x1 h := by
  rw [src_eq, dst_eq]
  unfold Cert.KernelIdeal.KV.agg10 Cert.ReferenceIdeal.RefValue.agg10 val_main_v47 val_main_cst_8 val_main_v48 val_main_v45
    val_main_v44 val_main_v41 val_main_v43 val_main_v40 val_main_v42 val_main_c_6 val_main_c_7
  rfl

/-- The out-degree factor as a column: reshaped (kernel) or broadcast (reference), one array. -/
theorem col_src_eq : shapeCast Cert.KernelIdeal.S100000x1 (normOf (srcOf x1)) Cert.KernelIdeal.Facts₀.shapeCasts_S100000_S100000x1
    = val_main_v15 (F := Ideal) x1 := by
  rw [norm_src_eq]
  unfold val_main_v15
  exact Cert.ColumnInDim.shapeCast_eq_broadcastInDim (val_main_v12 (F := Ideal) x1) _ _

/-- The in-degree factor as a column. -/
theorem col_dst_eq : shapeCast Cert.KernelIdeal.S100000x1 (normOf (dstOf x1)) Cert.KernelIdeal.Facts₀.shapeCasts_S100000_S100000x1
    = val_main_v29 (F := Ideal) x1 := by
  rw [norm_dst_eq]
  unfold val_main_v29
  exact Cert.ColumnInDim.shapeCast_eq_broadcastInDim (val_main_v14 (F := Ideal) x1) _ _

/-- The first bias as a row: reshaped (kernel) or broadcast (reference), one array. -/
theorem row16_eq (x3 : (⟨Cert.KernelIdeal.S16, .f32⟩ : BufTy).Contents (Elt Ideal)) :
    shapeCast Cert.KernelIdeal.S1x16 x3 Cert.KernelIdeal.Facts₀.shapeCasts_S16_S1x16 = val_main_v32 (F := Ideal) x3 := by
  unfold val_main_v32
  exact Cert.RowOfVector.shapeCast_eq_broadcastInDim (by decide) x3 _ _

/-- The second bias as a row. -/
theorem row10_eq (x5 : (⟨Cert.KernelIdeal.S10, .f32⟩ : BufTy).Contents (Elt Ideal)) :
    shapeCast Cert.KernelIdeal.S1x10 x5 Cert.KernelIdeal.Facts₀.shapeCasts_S10_S1x10 = val_main_v53 (F := Ideal) x5 := by
  unfold val_main_v53
  exact Cert.RowOfVector.shapeCast_eq_broadcastInDim (by decide) x5 _ _

end Cert.Proof.Bridge

end
-- ==== Proof.lean ====
/-
  A two-layer graph convolution with degree normalisation on both sides, computed by three row-tiled kernels
  around two host-side neighbour aggregations, against its plain array reference, over the extended reals.

  Both programs compute, with s and d the inverse square roots of the (clamped) out- and in-degrees,

      out = agg(max(agg((x · s) W₁) · d + b₁, 0) · s) W₂) · d + b₂,

  where agg gathers rows by each edge's source and adds them up by the edge's destination. The kernels' dense
  pieces are read row block by row block and put together over the 20 blocks of each launch; a change of float
  format is the identity and a product on the matrix unit into a zero accumulator is the general dot product's
  sum, so each dense piece is the same function of whole arrays on both sides. The aggregations and the degree
  factors are the same operations in both programs and are carried as they are, never opened. No finiteness of
  the inputs is used: the two sides are the same sums, term by term.
-/
import proofs.«164237_j20950850470456_1_alg».proof.Defs
import proofs.«164237_j20950850470456_1_alg».proof.Proof.Gen.Kernel
import proofs.«164237_j20950850470456_1_alg».proof.Proof.Gen.Kernel.Skeleton
import proofs.«164237_j20950850470456_1_alg».proof.Proof.Gen.Kernel.Launch
import proofs.«164237_j20950850470456_1_alg».proof.Proof.Gen.Kernel.Points
import proofs.«164237_j20950850470456_1_alg».proof.Proof.Gen.Kernel.Frame
import proofs.«164237_j20950850470456_1_alg».proof.Proof.Gen.KernelIdeal
import proofs.«164237_j20950850470456_1_alg».proof.Proof.Gen.KernelIdeal.Skeleton
import proofs.«164237_j20950850470456_1_alg».proof.Proof.Gen.KernelIdeal.Launch
import proofs.«164237_j20950850470456_1_alg».proof.Proof.Gen.KernelIdeal.Points
import proofs.«164237_j20950850470456_1_alg».proof.Proof.Gen.KernelIdeal.Frame
import proofs.«164237_j20950850470456_1_alg».proof.Proof.Gen.ReferenceIdeal
import proofs.«164237_j20950850470456_1_alg».proof.Proof.Gen.Pre_finite_inputs
import proofs.«164237_j20950850470456_1_alg».proof.Proof.Gen.ReferenceIdeal.Run
import proofs.«164237_j20950850470456_1_alg».proof.Proof.Gen.ReferenceIdeal.Read
import proofs.«164237_j20950850470456_1_alg».proof.Proof.KRun
import proofs.«164237_j20950850470456_1_alg».proof.Proof.KHost
import proofs.«164237_j20950850470456_1_alg».proof.Proof.KEntry
import proofs.«164237_j20950850470456_1_alg».proof.Proof.RefSide
import proofs.«164237_j20950850470456_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program's result, walked back through its ten segments, is the reference's result term of the
    same argument arrays. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 m ρ c (Proc.devRef .tc Cert.KernelIdeal.main_v41)
      = Cert.ReferenceIdeal.Read.val_main_v55 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  rw [Cert.KernelIdeal.KV.result_eq, Cert.KernelIdeal.KV.W5_arg0, Cert.KernelIdeal.KV.W5_arg2, Cert.KernelIdeal.KV.W5_arg3,
    Cert.KernelIdeal.KV.W5_arg4, Cert.KernelIdeal.KV.W5_arg5, Cert.KernelIdeal.KV.W5_v1, Cert.KernelIdeal.KV.W5_v3,
    Cert.KernelIdeal.KV.W5_v15, Cert.KernelIdeal.KV.W5_v16, Cert.Proof.Bridge.agg16_eq, Cert.Proof.Bridge.agg10_eq,
    Cert.Proof.Bridge.col_src_eq, Cert.Proof.Bridge.col_dst_eq, Cert.Proof.Bridge.row16_eq, Cert.Proof.Bridge.row10_eq]
  exact (Cert.ReferenceIdeal.RefValue.result_eq _ _ _ _ _ _).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs run, and from memories that agree on the arguments they end with equal results. -/
theorem algebraic : Cert.algebraic_KernelIdeal_ReferenceIdeal := by
  intro m ρ m' ρ' _ hagree
  refine ⟨fun c => Cert.KernelIdeal.Gen.W10 m ρ c (Proc.devRef .tc Cert.KernelIdeal.main_v41),
    Cert.KernelIdeal.KV.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2.1, (hagree c).2.2.2.1,
    (hagree c).2.2.2.2.1, (hagree c).2.2.2.2.2]
  exact (kernel_value m ρ c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
